-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x131072 : Shape := ⟨2, ![2, 131072]⟩
abbrev S256x128 : Shape := ⟨2, ![256, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S8192x128 .f32) (main_arg1 : IVec S2x131072 32) (main_arg2 : FVec F S256x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S8192x128 : Shape := ⟨2, ![8192, 128]⟩
abbrev S2x131072 : Shape := ⟨2, ![2, 131072]⟩
abbrev S256x128 : Shape := ⟨2, ![256, 128]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S128x256 : Shape := ⟨2, ![128, 256]⟩
abbrev S8192x256 : Shape := ⟨2, ![8192, 256]⟩
abbrev S2048x2048 : Shape := ⟨2, ![2048, 2048]⟩
abbrev S2048x1 : Shape := ⟨2, ![2048, 1]⟩
abbrev S2048x256 : Shape := ⟨2, ![2048, 256]⟩
abbrev S2048x128 : Shape := ⟨2, ![2048, 128]⟩

abbrev nBuf : Space → Nat
  | .hbm => 46
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S256x128, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .bf16⟩
  | .hbm, ⟨8, _⟩ => ⟨S8192x8192, .bf16⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S_, .bf16⟩
  | .hbm, ⟨27, _⟩ => ⟨S131072, .bf16⟩
  | .hbm, ⟨28, _⟩ => ⟨S8192x8192, .bf16⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x128, .f32⟩
  | .hbm, ⟨40, _⟩ => ⟨S8192x128, .f32⟩
  | .hbm, ⟨41, _⟩ => ⟨S8192x128, .bf16⟩
  | .hbm, ⟨42, _⟩ => ⟨S128x256, .f32⟩
  | .hbm, ⟨43, _⟩ => ⟨S128x256, .bf16⟩
  | .hbm, ⟨44, _⟩ => ⟨S8192x1, .f32⟩
  | .hbm, ⟨45, _⟩ => ⟨S8192x256, .f32⟩
  | .local _ .vmem, ⟨0, _⟩ => ⟨S2048x2048, .bf16⟩
  | .local _ .vmem, ⟨1, _⟩ => ⟨S2048x2048, .bf16⟩
  | .local _ .vmem, ⟨2, _⟩ => ⟨S8192x128, .bf16⟩
  | .local _ .vmem, ⟨3, _⟩ => ⟨S128x256, .bf16⟩
  | .local _ .vmem, ⟨4, _⟩ => ⟨S2048x1, .f32⟩
  | .local _ .vmem, ⟨5, _⟩ => ⟨S2048x1, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c2048_i32_8 : BitVec 32 := 2048#32
  let v19 : BitVec 32 := Scalar.muli arg0 c2048_i32_8
  v19
def k0_off1 (i : grid0.Coords) : Fin 2 → Nat :=
  let arg0 : BitVec 32 := BitVec.ofNat 32 (i 0).val
  let c2048_i32_8 : BitVec 32 := 2048#32
  let v19 : BitVec 32 := Scalar.muli arg0 c2048_i32_8
  let v20 : BitVec 32 := v19
  let v21 : Index := Scalar.indexCast v20
  let c0_9 : Index := 0#32
  ![v21.toNat, 0]
def k0_mult2 (i : grid0.Coords) : BitVec 32 :=
  let arg1 : BitVec 32 := BitVec.ofNat 32 (i 1).val
  let c2048_i32 : BitVec 32 := 2048#32
  let v3 : BitVec 32 := Scalar.muli arg1 c2048_i32
  v3
def k0_off2 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S256x128_S128x256_1_0 : S256x128.Transposes [1, 0] S128x256
  shapeCasts_S8192_S8192x1 : S8192.ShapeCasts S8192x1
  h_S2048x128 : 0 < S2048x128.numel
  shapeCasts_S2048x128_S2048x128 : S2048x128.ShapeCasts S2048x128
  inb_S2048x128_S2048x128_0_0 : ∀ a, (![0, 0] : Fin 2 → Nat) a + S2048x128.size a ≤ S2048x128.size a
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  scatter_S8192x8192_S131072x2_S131072_n_01_01_1_wf : ScatterDims.WF S8192x8192 S131072x2 S131072 [] [0, 1] [0, 1] 1
  dot_S2048x2048_S2048x128_S2048x128_1_0_0_1_n_n_wf : DotDims.WF S2048x2048 S2048x128 S2048x128 [1] [0] [0] [1] [] []
  dot_S2048x128_S128x256_S2048x256_1_0_0_1_n_n_wf : DotDims.WF S2048x128 S128x256 S2048x256 [1] [0] [0] [1] [] []
  hrank0 : 0 < grid0.rank
  k0_mult1_dvd : ∀ i : grid0.Coords, ∀ (k0_h1 : k0_cond1 i = 1#1), 2048 ∣ (k0_mult1 i).toNat
  k0_off1_inb : ∀ i : grid0.Coords, ∀ (k0_h1 : k0_cond1 i = 1#1), ∀ a, (k0_off1 i) a + S2048x128.size a ≤ S8192x128.size a
  k0_mult2_dvd : ∀ i : grid0.Coords, 2048 ∣ (k0_mult2 i).toNat
  k0_off2_inb : ∀ i : grid0.Coords, ∀ a, (k0_off2 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .bf16 = 32 ∨ (Rect.block (s := S8192x8192) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_v19) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S2x131072 : Shape := ⟨2, ![2, 131072]⟩
abbrev S256x128 : Shape := ⟨2, ![256, 128]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S1x8192 : Shape := ⟨2, ![1, 8192]⟩
abbrev S128x256 : Shape := ⟨2, ![128, 256]⟩
abbrev S8192x256 : Shape := ⟨2, ![8192, 256]⟩

abbrev nBuf : Space → Nat
  | .hbm => 51
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S256x128, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S8192x8192, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S_, .f32⟩
  | .hbm, ⟨27, _⟩ => ⟨S131072, .f32⟩
  | .hbm, ⟨28, _⟩ => ⟨S8192x8192, .f32⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S1x8192, .f32⟩
  | .hbm, ⟨46, _⟩ => ⟨S8192x8192, .f32⟩
  | .hbm, ⟨47, _⟩ => ⟨S8192x8192, .f32⟩
  | .hbm, ⟨48, _⟩ => ⟨S8192x128, .f32⟩
  | .hbm, ⟨49, _⟩ => ⟨S128x256, .f32⟩
  | .hbm, ⟨50, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x128_S128x256_1_0 : S256x128.Transposes [1, 0] S128x256
  scatter_S8192x8192_S131072x2_S131072_n_01_01_1_wf : ScatterDims.WF S8192x8192 S131072x2 S131072 [] [0, 1] [0, 1] 1
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.KernelPieces.lean ====
/-
  What the kernel body leaves in its accumulator and in its output block, case by case, as the body's own
  arithmetic applied to the blocks it was given: the covering stores read back, each load through a whole
  buffer reading the buffer, the two loads of feature rows reading the rows the grid point names.
-/
import proofs.«105016_j9328668967304_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- At a middle point of a row sweep the body leaves in the accumulator what it held plus the product of the
    adjacency block with the rows of the scaled features the point's column block names. -/
theorem scratch_B (c : Dev nD) (i : grid0.Coords) (arg2 : Memref sig .tc .vmem S2048x2048 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x128 .f32) (harg7 : arg7.IsWhole) (hc0 : ¬cond0_0 i) (hc1 : ¬cond0_1 i) (x0 : Vec F S2048x2048 .bf16) (x1 : Vec F S8192x128 .bf16) (x2 : Vec F S128x256 .bf16) (x3 : Vec F S2048x1 .f32) (xs0 : Vec F S2048x128 .f32) :
    sout0_B_0 c i arg2 harg2 arg3 harg3 arg4 harg4 arg5 harg5 arg6 harg6 arg7 harg7 hc0 hc1 x0 x1 x2 x3 xs0 = k0_pay2 (View.ld x1 (Rect.unit (s := S8192x128) (k0_off2 i) S2048x128.size (k0_off2_inb i))) x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg7.read_unread, View.ld_unit_zero (S := S2048x128) hz, View.ld_unit_zero (S := S2048x2048) hz]

/-- At the last point of a row sweep the accumulator ends the same way. -/
theorem scratch_C (c : Dev nD) (i : grid0.Coords) (arg2 : Memref sig .tc .vmem S2048x2048 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x128 .f32) (harg7 : arg7.IsWhole) (hc0 : ¬cond0_0 i) (hc1 : cond0_1 i) (x0 : Vec F S2048x2048 .bf16) (x1 : Vec F S8192x128 .bf16) (x2 : Vec F S128x256 .bf16) (x3 : Vec F S2048x1 .f32) (xs0 : Vec F S2048x128 .f32) :
    sout0_C_0 c i arg2 harg2 arg3 harg3 arg4 harg4 arg5 harg5 arg6 harg6 arg7 harg7 hc0 hc1 x0 x1 x2 x3 xs0 = k0_pay2 (View.ld x1 (Rect.unit (s := S8192x128) (k0_off2 i) S2048x128.size (k0_off2_inb i))) x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S2048x128) hz]
  simp only [View.readAt_eq_ld, harg2.read_unread, harg3.read_unread, harg7.read_unread, View.ld_unit_zero (S := S2048x128) hz, View.ld_unit_zero (S := S2048x2048) hz]

/-- At the first point of a row sweep the accumulator is first set to the row tile's own scaled features (the
    identity term), then the first block product is added. -/
theorem scratch_A (c : Dev nD) (i : grid0.Coords) (arg2 : Memref sig .tc .vmem S2048x2048 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x128 .f32) (harg7 : arg7.IsWhole) (hc0 : cond0_0 i) (hc1 : ¬cond0_1 i) (x0 : Vec F S2048x2048 .bf16) (x1 : Vec F S8192x128 .bf16) (x2 : Vec F S128x256 .bf16) (x3 : Vec F S2048x1 .f32) :
    sout0_A_0 c i arg2 harg2 arg3 harg3 arg4 harg4 arg5 harg5 arg6 harg6 arg7 harg7 hc0 hc1 x0 x1 x2 x3 = k0_pay2 (View.ld x1 (Rect.unit (s := S8192x128) (k0_off2 i) S2048x128.size (k0_off2_inb i))) x0 (k0_pay1 (View.ld x1 (Rect.unit (s := S8192x128) (k0_off1 i) S2048x128.size (k0_off1_inb i hc0)))) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x128) hz, View.readCov_unit_zero (S := S2048x128) _ hz]
  simp only [View.readAt_eq_ld, harg2.read_unread, harg3.read_unread, View.ld_unit_zero (S := S2048x2048) hz]

/-- At the last point of a row sweep the output block is the finished accumulator, scaled row by row and
    multiplied by the transposed weights. -/
theorem out_C (c : Dev nD) (i : grid0.Coords) (arg2 : Memref sig .tc .vmem S2048x2048 .bf16) (harg2 : arg2.IsWhole) (arg3 : Memref sig .tc .vmem S8192x128 .bf16) (harg3 : arg3.IsWhole) (arg4 : Memref sig .tc .vmem S128x256 .bf16) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x128 .f32) (harg7 : arg7.IsWhole) (hc0 : ¬cond0_0 i) (hc1 : cond0_1 i) (x0 : Vec F S2048x2048 .bf16) (x1 : Vec F S8192x128 .bf16) (x2 : Vec F S128x256 .bf16) (x3 : Vec F S2048x1 .f32) (xs0 : Vec F S2048x128 .f32) :
    out0_C_4 c i arg2 harg2 arg3 harg3 arg4 harg4 arg5 harg5 arg6 harg6 arg7 harg7 hc0 hc1 x0 x1 x2 x3 xs0 = k0_pay3 (k0_pay2 (View.ld x1 (Rect.unit (s := S8192x128) (k0_off2 i) S2048x128.size (k0_off2_inb i))) x0 xs0) x3 x2 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S2048x256) hz, View.readCov_unit_zero (S := S2048x128) _ hz]
  simp only [View.readAt_eq_ld, harg2.read_unread, harg3.read_unread, harg4.read_unread, harg5.read_unread, harg7.read_unread, View.ld_unit_zero (S := S2048x128) hz, View.ld_unit_zero (S := S2048x2048) hz, View.ld_unit_zero (S := S2048x1) hz, View.ld_unit_zero (S := S128x256) hz]

end Cert.KernelIdeal.Pieces
end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.KernelPayload.lean ====
/-
  The kernel body's three pieces of arithmetic read at an index, on the extended reals, where a change of float
  format is the identity: the accumulator's seed is the loaded rows themselves; an accumulation step adds to the
  accumulator the product of the adjacency block with the feature rows, a plain sum over the block's columns; the
  epilogue scales each accumulator row by that row's factor and multiplies by the transposed weights, a plain sum
  over the feature axis.
-/
import proofs.«105016_j9328668967304_2_alg».proof.Proof.Gen.KernelIdeal.Skeleton
import proofs.«105016_j9328668967304_2_alg».proof.Proof.LibRowMax
import proofs.«105016_j9328668967304_2_alg».proof.Proof.LibColumn
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The seed of the accumulator: the loaded feature rows, unchanged. -/
theorem pay1_apply (v : Vec Ideal S2048x128 .bf16) (j : S2048x128.Idx) : k0_pay1 (F := Ideal) v j = v j := by
  unfold k0_pay1
  simp only [shapeCast_self]
  rfl

/-- One accumulation step at row `p`, feature `q`: the accumulator plus the sum over the block's columns `e` of the
    adjacency entry `(p, e)` times the feature entry `(e, q)`. -/
theorem pay2_apply (v6 : Vec Ideal S2048x128 .bf16) (v8 : Vec Ideal S2048x2048 .bf16) (v10 : Vec Ideal S2048x128 .f32)
    (p : Fin 2048) (q : Fin 128) :
    k0_pay2 (F := Ideal) v6 v8 v10 (ix2 p q) = v10 (ix2 p q) + ∑ e : Fin 2048, v8 (ix2 p e) * v6 (ix2 e q) := by
  unfold k0_pay2
  simp only [shapeCast_self]
  refine (addf_apply _ _ _).trans ?_
  exact congrArg (v10 (ix2 p q) + ·)
    (Cert.LibRowMax.matmul_plain_apply dot_S2048x2048_S2048x128_S2048x128_1_0_0_1_n_n.wf none v8 v6 p q)

/-- The epilogue at row `p`, output column `h`: the sum over the features `d` of the accumulator entry `(p, d)` times
    the row's factor, times the weight entry `(d, h)`. -/
theorem pay3_apply (v19 : Vec Ideal S2048x128 .f32) (v20 : Vec Ideal S2048x1 .f32) (v25 : Vec Ideal S128x256 .bf16)
    (p : Fin 2048) (h : Fin 256) :
    k0_pay3 (F := Ideal) v19 v20 v25 (ix2 p h)
      = ∑ d : Fin 128, (v19 (ix2 p d) * v20 (ix2 p (0 : Fin 1))) * v25 (ix2 d h) := by
  unfold k0_pay3
  simp only [shapeCast_self]
  refine Eq.trans (Cert.LibRowMax.matmul_plain_apply (φ₁ := .bf16) (φ₂ := .bf16) dot_S2048x128_S128x256_S2048x256_1_0_0_1_n_n.wf none
    (truncf .bf16 (mulf v19 (broadcastTo S2048x128 v20 broadcasts_S2048x1_S2048x128)) bitsLt_bf16_f32) v25 p h) ?_
  refine Finset.sum_congr rfl fun d _ => ?_
  refine congrArg (· * v25 (ix2 d h)) ?_
  show v19 (ix2 p d) * broadcastTo S2048x128 v20 broadcasts_S2048x1_S2048x128 (ix2 p d) = _
  exact congrArg (v19 (ix2 p d) * ·) (Cert.LibColumn.broadcastTo_a1_ab_apply v20 broadcasts_S2048x1_S2048x128 p d)

end Cert.KernelIdeal.Payload

end
-- ==== Proof.KernelSweep.lean ====
/-
  The kernel's result array, entry by entry, as a function of the four arrays the region is given: the dense
  adjacency `A` (8192 × 8192), the scaled features `XS` (8192 × 128), the transposed weights `WT` (128 × 256) and
  the column of row factors `DC` (8192 × 1).

  The grid is 4 row tiles × 4 column tiles, the column tile innermost. Within one row tile the accumulator is seeded
  with the tile's own rows of `XS` and then gains, column tile by column tile, the product of the adjacency block
  with the matching 2048 rows of `XS`; so after column tile `j` it holds, at row `p` and feature `q`,
  `XS(r, q) + Σ_{j' ≤ j} Σ_e A(r, 2048 j' + e) · XS(2048 j' + e, q)` with `r` the row of the array that `p` is in the
  tile (induction on the grid point). At the last column tile the output block is
  `Σ_d (acc(p, d) · DC(r, 0)) · WT(d, h)`; these blocks, one per row tile, tile the result array.
-/
import proofs.«105016_j9328668967304_2_alg».proof.Proof.Gen.KernelIdeal.Value
import proofs.«105016_j9328668967304_2_alg».proof.Proof.KernelPieces
import proofs.«105016_j9328668967304_2_alg».proof.Proof.KernelPayload
import Idealize.ShloMosaic.Lib.Pipeline.Value
import Idealize.ShloMosaic.Lib.ValueIdx

set_option maxRecDepth 16384

noncomputable section

namespace Cert.KernelIdeal.Sweep

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- A natural as a row (or column) number of an array with 8192 of them, reduced modulo 8192; every number met
    below is less than 8192 already, and the reduction only makes this a total function. -/
def row (n : ℕ) : Fin 8192 := ⟨n % 8192, Nat.mod_lt _ (by decide)⟩

/-- The adjacency, the scaled features, the transposed weights and the row factors as the region finds them. -/
abbrev adjV (c : Dev nD) : S8192x8192.Idx → EReal := V m c main_v19
abbrev featV (c : Dev nD) : S8192x128.Idx → EReal := V m c main_v29
abbrev wtV (c : Dev nD) : S128x256.Idx → EReal := V m c main_v31
abbrev facV (c : Dev nD) : S8192x1.Idx → EReal := V m c main_v32

/-- The four input blocks at a grid point, at their literal shapes. -/
abbrev bA (c : Dev nD) (t : Fin cfg0.N) : Vec Ideal S2048x2048 .bf16 := iblk m c 0 t
abbrev bX (c : Dev nD) (t : Fin cfg0.N) : Vec Ideal S8192x128 .bf16 := iblk m c 1 t
abbrev bW (c : Dev nD) (t : Fin cfg0.N) : Vec Ideal S128x256 .bf16 := iblk m c 2 t
abbrev bD (c : Dev nD) (t : Fin cfg0.N) : Vec Ideal S2048x1 .f32 := iblk m c 3 t

/-! ## Where the blocks sit -/

/-- The block indices of the five windows at grid point `t`: the row tile is `t / 4`, the column tile `t % 4`. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

/-- The first rows of the two loads of feature rows at grid point `t`. -/
theorem off_facts : ∀ t : Fin cfg0.N,
    k0_off2 (grid0.coords t) (0 : Fin 2) = 2048 * (t.val % 4) ∧ k0_off2 (grid0.coords t) (1 : Fin 2) = 0
    ∧ k0_off1 (grid0.coords t) (0 : Fin 2) = 2048 * (t.val / 4) ∧ k0_off1 (grid0.coords t) (1 : Fin 2) = 0 :=
  (by decide +kernel : ∀ t : Fin grid0.N, _)

/-- The adjacency block at point `t`, entry `(p, e)`: row `2048 (t / 4) + p`, column `2048 (t % 4) + e` of the array. -/
theorem iblk0_apply (c : Dev nD) (t : Fin cfg0.N) (p e : Fin 2048) :
    bA m c t (ix2 p e)
      = adjV m c (ix2 (row (2048 * (t.val / 4) + p.val)) (row (2048 * (t.val % 4) + e.val))) := by
  obtain ⟨e0, e1, -⟩ := idx_facts t
  have ht : t.val < 16 := lt_of_lt_of_eq t.isLt N_0
  have hp := p.isLt
  have he := e.isLt
  show adjV m c (((cfg0.win 0).blk t).view.emb (ix2 p e)) = adjV m c _
  refine congrArg (adjV m c) (funext fun a => Fin.ext ?_)
  match a with
  | ⟨0, _⟩ =>
    show win0_0.index t (0 : Fin 2) * 2048 + 1 * p.val = (2048 * (t.val / 4) + p.val) % 8192
    rw [e0]; omega
  | ⟨1, _⟩ =>
    show win0_0.index t (1 : Fin 2) * 2048 + 1 * e.val = (2048 * (t.val % 4) + e.val) % 8192
    rw [e1]; omega

/-- The feature window's block is the whole array, at every point. -/
theorem iblk1_apply (c : Dev nD) (t : Fin cfg0.N) (k : Fin 8192) (q : Fin 128) :
    bX m c t (ix2 k q) = featV m c (ix2 k q) := by
  obtain ⟨-, -, e0, e1, -⟩ := idx_facts t
  show featV m c (((cfg0.win 1).blk t).view.emb (ix2 k q)) = featV m c _
  refine congrArg (featV m c) (funext fun a => Fin.ext ?_)
  match a with
  | ⟨0, _⟩ =>
    show win0_1.index t (0 : Fin 2) * 8192 + 1 * k.val = k.val
    rw [e0]; omega
  | ⟨1, _⟩ =>
    show win0_1.index t (1 : Fin 2) * 128 + 1 * q.val = q.val
    rw [e1]; omega

/-- The weight window's block is the whole array, at every point. -/
theorem iblk2_apply (c : Dev nD) (t : Fin cfg0.N) (d : Fin 128) (h : Fin 256) :
    bW m c t (ix2 d h) = wtV m c (ix2 d h) := by
  obtain ⟨-, -, -, -, e0, e1, -⟩ := idx_facts t
  show wtV m c (((cfg0.win 2).blk t).view.emb (ix2 d h)) = wtV m c _
  refine congrArg (wtV m c) (funext fun a => Fin.ext ?_)
  match a with
  | ⟨0, _⟩ =>
    show win0_2.index t (0 : Fin 2) * 128 + 1 * d.val = d.val
    rw [e0]; omega
  | ⟨1, _⟩ =>
    show win0_2.index t (1 : Fin 2) * 256 + 1 * h.val = h.val
    rw [e1]; omega

/-- The row-factor block at point `t`, entry `(p, 0)`: row `2048 (t / 4) + p` of the column. -/
theorem iblk3_apply (c : Dev nD) (t : Fin cfg0.N) (p : Fin 2048) :
    bD m c t (ix2 p (0 : Fin 1))
      = facV m c (ix2 (row (2048 * (t.val / 4) + p.val)) (0 : Fin 1)) := by
  obtain ⟨-, -, -, -, -, -, e0, e1, -⟩ := idx_facts t
  have ht : t.val < 16 := lt_of_lt_of_eq t.isLt N_0
  have hp := p.isLt
  show facV m c (((cfg0.win 3).blk t).view.emb (ix2 p (0 : Fin 1))) = facV m c _
  refine congrArg (facV m c) (funext fun a => Fin.ext ?_)
  match a with
  | ⟨0, _⟩ =>
    show win0_3.index t (0 : Fin 2) * 2048 + 1 * p.val = (2048 * (t.val / 4) + p.val) % 8192
    rw [e0]; omega
  | ⟨1, _⟩ =>
    show win0_3.index t (1 : Fin 2) * 1 + 1 * 0 = 0
    rw [e1]

/-- The rows of an 8192 × 128 array that the accumulation step loads at point `t`: entry `(e, q)` is row
    `2048 (t % 4) + e`. -/
theorem ld_step (X : S8192x128.Idx → EReal) (t : Fin cfg0.N) (e : Fin 2048) (q : Fin 128) :
    View.ld (Val := Elt Ideal) (e' := .bf16) X
        (Rect.unit (s := S8192x128) (k0_off2 (grid0.coords t)) S2048x128.size (k0_off2_inb (grid0.coords t))) (ix2 e q)
      = X (ix2 (row (2048 * (t.val % 4) + e.val)) q) := by
  obtain ⟨e0, e1, -⟩ := off_facts t
  have ht : t.val < 16 := lt_of_lt_of_eq t.isLt N_0
  have he := e.isLt
  refine congrArg X (funext fun a => Fin.ext ?_)
  match a with
  | ⟨0, _⟩ =>
    show k0_off2 (grid0.coords t) (0 : Fin 2) + 1 * e.val = (2048 * (t.val % 4) + e.val) % 8192
    rw [e0]; omega
  | ⟨1, _⟩ =>
    show k0_off2 (grid0.coords t) (1 : Fin 2) + 1 * q.val = q.val
    rw [e1]; omega

/-- The rows that the seed of the accumulator loads at the first point `t` of a row tile: entry `(p, q)` is row
    `2048 (t / 4) + p`. -/
theorem ld_seed (X : S8192x128.Idx → EReal) (t : Fin cfg0.N) (hc : cond0_0 (grid0.coords t)) (p : Fin 2048) (q : Fin 128) :
    View.ld (Val := Elt Ideal) (e' := .bf16) X
        (Rect.unit (s := S8192x128) (k0_off1 (grid0.coords t)) S2048x128.size (k0_off1_inb (grid0.coords t) hc)) (ix2 p q)
      = X (ix2 (row (2048 * (t.val / 4) + p.val)) q) := by
  obtain ⟨-, -, e0, e1⟩ := off_facts t
  have ht : t.val < 16 := lt_of_lt_of_eq t.isLt N_0
  have hp := p.isLt
  refine congrArg X (funext fun a => Fin.ext ?_)
  match a with
  | ⟨0, _⟩ =>
    show k0_off1 (grid0.coords t) (0 : Fin 2) + 1 * p.val = (2048 * (t.val / 4) + p.val) % 8192
    rw [e0]; omega
  | ⟨1, _⟩ =>
    show k0_off1 (grid0.coords t) (1 : Fin 2) + 1 * q.val = q.val
    rw [e1]; omega

/-! ## The accumulator over a row tile -/

/-- Row `r` of the adjacency, restricted to column tile `j`, against rows `2048 j …` of the scaled features, at
    feature `q`: the sum over the tile's 2048 columns. -/
def blockTerm (c : Dev nD) (r : Fin 8192) (j : ℕ) (q : Fin 128) : EReal :=
  ∑ e : Fin 2048, adjV m c (ix2 r (row (2048 * j + e.val))) * featV m c (ix2 (row (2048 * j + e.val)) q)

/-- One accumulation step at point `t`, over any accumulator contents: the block product is added. -/
theorem step_apply (c : Dev nD) (t : Fin cfg0.N) (acc : Vec Ideal S2048x128 .f32) (p : Fin 2048) (q : Fin 128) :
    k0_pay2 (F := Ideal) (View.ld (Val := Elt Ideal) (S := S8192x128) (e' := .bf16) (bX m c t) (Rect.unit (s := S8192x128) (k0_off2 (grid0.coords t)) S2048x128.size (k0_off2_inb (grid0.coords t)))) (bA m c t) acc (ix2 p q)
      = acc (ix2 p q) + blockTerm m c (row (2048 * (t.val / 4) + p.val)) (t.val % 4) q := by
  refine (Payload.pay2_apply _ _ _ p q).trans ?_
  refine congrArg (acc (ix2 p q) + ·) (Finset.sum_congr rfl fun e _ => ?_)
  refine congrArg₂ (· * ·) (iblk0_apply m c t p e) ?_
  exact (ld_step _ t e q).trans (iblk1_apply m c t _ q)

/-- What the accumulator holds after grid point `t`: the row tile's own scaled features plus the block products of
    the column tiles done so far (induction on the point's number). -/
theorem acc_eq (c : Dev nD) : ∀ (n : ℕ) (t : Fin cfg0.N), t.val = n → ∀ (p : Fin 2048) (q : Fin 128),
    (outsAt0 m c t.val t.isLt).2 (ix2 p q)
      = featV m c (ix2 (row (2048 * (t.val / 4) + p.val)) q)
        + ∑ j ∈ Finset.range (t.val % 4 + 1), blockTerm m c (row (2048 * (t.val / 4) + p.val)) j q := by
  intro n
  induction n using Nat.strong_induction_on with
  | _ n ih =>
    intro t htn p q
    have hN : t.val < 16 := lt_of_lt_of_eq t.isLt N_0
    by_cases h0 : t.val % 4 = 0
    · have h1 : ¬ t.val % 4 = 3 := by omega
      have e1 : (outsAt0 m c t.val t.isLt).2
          = k0_pay2 (View.ld (Val := Elt Ideal) (S := S8192x128) (e' := .bf16) (bX m c t) (Rect.unit (s := S8192x128) (k0_off2 (grid0.coords t)) S2048x128.size (k0_off2_inb (grid0.coords t)))) (bA m c t)
              (k0_pay1 (View.ld (Val := Elt Ideal) (S := S8192x128) (e' := .bf16) (bX m c t) (Rect.unit (s := S8192x128) (k0_off1 (grid0.coords t)) S2048x128.size
                (k0_off1_inb (grid0.coords t) ((hcond0_0 t).mpr h0))))) := by
        have hS := Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
          (fun hh => h1 ((hcond0_1 t).mp hh)) (bA m c t) (bX m c t) (bW m c t) (bD m c t)
        have hO := congrArg Prod.snd (outsAt0_A m c t h0 h1)
        dsimp only at hO
        rw [hO]
        exact hS
      rw [e1]
      refine (step_apply m c t _ p q).trans ?_
      have hr : ∑ j ∈ Finset.range (t.val % 4 + 1), blockTerm m c (row (2048 * (t.val / 4) + p.val)) j q
          = blockTerm m c (row (2048 * (t.val / 4) + p.val)) 0 q := by
        rw [h0]; exact Finset.sum_range_one _
      have hl : blockTerm m c (row (2048 * (t.val / 4) + p.val)) (t.val % 4) q
          = blockTerm m c (row (2048 * (t.val / 4) + p.val)) 0 q := by rw [h0]
      rw [hr, hl]
      refine congrArg (· + blockTerm m c (row (2048 * (t.val / 4) + p.val)) 0 q) ?_
      exact (Payload.pay1_apply _ _).trans ((ld_seed (bX m c t) t ((hcond0_0 t).mpr h0) p q).trans (iblk1_apply m c t _ q))
    · have hlt : t.val - 1 < cfg0.N := Nat.lt_of_le_of_lt (Nat.sub_le _ _) t.isLt
      have e1 : (outsAt0 m c t.val t.isLt).2
          = k0_pay2 (View.ld (Val := Elt Ideal) (S := S8192x128) (e' := .bf16) (bX m c t) (Rect.unit (s := S8192x128) (k0_off2 (grid0.coords t)) S2048x128.size (k0_off2_inb (grid0.coords t)))) (bA m c t) (outsAt0 m c (t.val - 1) hlt).2 := by
        by_cases h1 : t.val % 4 = 3
        · have hS := Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh))
            ((hcond0_1 t).mpr h1) (bA m c t) (bX m c t) (bW m c t) (bD m c t) (outsAt0 m c (t.val - 1) hlt).2
          have hO := congrArg Prod.snd (outsAt0_C m c t h0 h1)
          dsimp only at hO
          rw [hO]
          exact hS
        · have hS := Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh))
            (fun hh => h1 ((hcond0_1 t).mp hh)) (bA m c t) (bX m c t) (bW m c t) (bD m c t) (outsAt0 m c (t.val - 1) hlt).2
          have hO := congrArg Prod.snd (outsAt0_B m c t h0 h1)
          dsimp only at hO
          rw [hO]
          exact hS
      have ihp : (outsAt0 m c (t.val - 1) hlt).2 (ix2 p q)
          = featV m c (ix2 (row (2048 * ((t.val - 1) / 4) + p.val)) q)
            + ∑ j ∈ Finset.range ((t.val - 1) % 4 + 1), blockTerm m c (row (2048 * ((t.val - 1) / 4) + p.val)) j q :=
        ih (t.val - 1) (by omega) ⟨t.val - 1, hlt⟩ rfl p q
      rw [e1]
      refine (step_apply m c t _ p q).trans ?_
      rw [ihp]
      have d1 : (t.val - 1) / 4 = t.val / 4 := by omega
      have d2 : (t.val - 1) % 4 + 1 = t.val % 4 := by omega
      rw [d1, d2, Finset.sum_range_succ, add_assoc]

/-! ## The result array -/

/-- The kernel's result at `(r, h)`: the finished accumulator row — the row's own scaled features plus the four
    block products — scaled by the row's factor, against column `h` of the transposed weights. -/
def result (c : Dev nD) : S8192x256.Idx → EReal := fun i =>
  ∑ d : Fin 128, ((featV m c (ix2 (i 0) d) + ∑ j ∈ Finset.range 4, blockTerm m c (i 0) j d)
      * facV m c (ix2 (i 0) (0 : Fin 1))) * wtV m c (ix2 d (i 1))

/-- What the last point of a row tile writes back is that tile's rows of `result`. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  have h0 : ¬ t.val % 4 = 0 := by omega
  have ht : t.val < 16 := lt_of_lt_of_eq t.isLt N_0
  have hlt : t.val - 1 < cfg0.N := Nat.lt_of_le_of_lt (Nat.sub_le _ _) t.isLt
  have hA := Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh))
    ((hcond0_1 t).mpr h1) (bA m c t) (bX m c t) (bW m c t) (bD m c t) (outsAt0 m c (t.val - 1) hlt).2
  have hB := Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh))
    ((hcond0_1 t).mpr h1) (bA m c t) (bX m c t) (bW m c t) (bD m c t) (outsAt0 m c (t.val - 1) hlt).2
  have key : (dats m 0 c).flushed 4 t
      = (cfg0.win 4).cut (grid0.coords t) (k0_pay3 (outsAt0 m c t.val t.isLt).2 (bD m c t) (bW m c t)) := by
    rw [Cert.KernelIdeal.Value.flushed4 m c t, outsAt0_C m c t h0 h1]
    dsimp only
    rw [hA, hB]
  rw [key]
  obtain ⟨-, -, -, -, -, -, -, -, e0, e1⟩ := idx_facts t
  funext y
  obtain ⟨p, h, rfl⟩ : ∃ (p : Fin 2048) (h : Fin 256), y = ix2 p h := ⟨y 0, y 1, eq_ix2 y⟩
  have hp := p.isLt
  have hemb : ((cfg0.win 4).blk t).view.emb (ix2 p h) = ix2 (row (2048 * (t.val / 4) + p.val)) h := by
    funext a; apply Fin.ext
    match a with
    | ⟨0, _⟩ =>
      show win0_4.index t (0 : Fin 2) * 2048 + 1 * p.val = (2048 * (t.val / 4) + p.val) % 8192
      rw [e0]; omega
    | ⟨1, _⟩ =>
      show win0_4.index t (1 : Fin 2) * 256 + 1 * h.val = h.val
      rw [e1]; omega
  show k0_pay3 (F := Ideal) (outsAt0 m c t.val t.isLt).2 (bD m c t) (bW m c t) (ix2 p h)
    = result m c (((cfg0.win 4).blk t).view.emb (ix2 p h))
  rw [hemb]
  refine (Payload.pay3_apply _ _ _ p h).trans ?_
  show _ = ∑ d : Fin 128, ((featV m c (ix2 (row (2048 * (t.val / 4) + p.val)) d)
      + ∑ j ∈ Finset.range 4, blockTerm m c (row (2048 * (t.val / 4) + p.val)) j d)
      * facV m c (ix2 (row (2048 * (t.val / 4) + p.val)) (0 : Fin 1))) * wtV m c (ix2 d h)
  refine Finset.sum_congr rfl fun d _ => ?_
  refine congrArg₂ (· * ·) (congrArg₂ (· * ·) ?_ (iblk3_apply m c t p)) (iblk2_apply m c t d h)
  rw [acc_eq m c t.val t rfl p d, h1]

/-- An index of the result array is in point `t`'s block iff each coordinate is in the block's range. -/
theorem mem_blk4 (t : Fin cfg0.N) (i : S8192x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v33).slice (win0_4.rect t)).set ↔ _
  rw [View.set_slice_whole, Rect.mem_set_unit]
  exact Iff.rfl

/-- Every row of the result array lies in the block of the last point of its row tile. -/
theorem cover (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 16 := N_0
  have hb : 4 * ((i 0).val / 2048) + 3 < cfg0.N := by rw [hN]; omega
  obtain ⟨t, tv⟩ : ∃ t : Fin cfg0.N, t.val = 4 * ((i 0).val / 2048) + 3 := ⟨⟨_, hb⟩, rfl⟩
  obtain ⟨-, -, -, -, -, -, -, -, e0, e1⟩ := idx_facts t
  refine ⟨t, (flush0_4 t).mpr (by omega), ?_⟩
  rw [mem_blk4]
  intro a
  match a with
  | ⟨0, _⟩ =>
    show win0_4.index t (0 : Fin 2) * 2048 ≤ (i 0).val ∧ (i 0).val < win0_4.index t (0 : Fin 2) * 2048 + 2048
    rw [e0]; omega
  | ⟨1, _⟩ =>
    show win0_4.index t (1 : Fin 2) * 256 ≤ (i 1).val ∧ (i 1).val < win0_4.index t (1 : Fin 2) * 256 + 256
    rw [e1]; omega

/-- So the result array ends holding `result`. -/
theorem final (c : Dev nD) : (dats m 0 c).arrAt 4 cfg0.N = result m c :=
  (dats m 0 c).arrAt_eq_of_cover 4 (result m c) (fun t hf => flushed_eq m c t hf) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Sweep

end
-- ==== Proof.KernelHost.lean ====
/-
  The host operations that run before the kernel, read back: the four arrays the kernel is given as functions of the
  three arguments — the dense adjacency scattered from the edge list, the features scaled row by row, the transposed
  weights, and the column of row factors (row sum of the adjacency plus one, to the power −1/2) — and each of them read
  at an index.
-/
import proofs.«105016_j9328668967304_2_alg».proof.Proof.Gen.KernelIdeal.Frame
import proofs.«105016_j9328668967304_2_alg».proof.Proof.Gen.ReferenceIdeal.Read
import proofs.«105016_j9328668967304_2_alg».proof.Proof.LibRowMax
import proofs.«105016_j9328668967304_2_alg».proof.Proof.LibColumn
import Idealize.ShloMosaic.Lib.StableHlo.Run
import Idealize.ShloMosaic.Lib.ValueLayout
import Idealize.ShloMosaic.Lib.IdealHost

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The three arguments as launched, at their literal shapes. -/
abbrev xArg (c : Dev nD) : S8192x128.Idx → EReal := m ((c : Thread nD τ).loc main_arg0)
abbrev eArg (c : Dev nD) : (⟨S2x131072, .i32⟩ : BufTy).Contents (Elt Ideal) := m ((c : Thread nD τ).loc main_arg1)
abbrev wArg (c : Dev nD) : S256x128.Idx → EReal := m ((c : Thread nD τ).loc main_arg2)

/-- The dense adjacency as a function of the edge list: ones scattered into zeros at the (wrapped) index pairs. -/
def adjTerm (x1 : (⟨S2x131072, .i32⟩ : BufTy).Contents (Elt Ideal)) : FVec Ideal S8192x8192 .bf16 :=
  Host.scatter scatter_S8192x8192_S131072x2_S131072_n_01_01_1 (fun _ b => b)
    (broadcastInDim S8192x8192 ![] bcast_S_S8192x8192 (constant (F := Ideal) S_ .bf16 0x0000#16))
    (Cert.ReferenceIdeal.Read.val_main_v17 (F := Ideal) x1)
    (broadcastInDim S131072 ![] bcast_S_S131072 (constant (F := Ideal) S_ .bf16 0x3F80#16))

/-- The row factors as a function of the adjacency: (row sum + 1) to the power −1/2. -/
def disTerm (A : FVec Ideal S8192x8192 .bf16) : FVec Ideal S8192 .f32 :=
  Host.powf (F := Ideal)
    (addf (Host.reduceAdd (extf .f32 A bitsLt_bf16_f32) (constant (F := Ideal) S_ .f32 0x00000000#32) reducesTo_S8192x8192_S8192_d1 h_S_)
      (broadcastInDim S8192 ![] bcast_S_S8192 (constant (F := Ideal) S_ .f32 0x3F800000#32)))
    (broadcastInDim S8192 ![] bcast_S_S8192 (constant (F := Ideal) S_ .f32 0xBF000000#32))

/-! ## What the region finds in its four arrays -/

/-- The adjacency the region is given is the scatter of the edge list. -/
theorem V19 (c : Dev nD) : (V m c main_v19 : FVec Ideal S8192x8192 .bf16) = adjTerm (m ((c : Thread nD τ).loc main_arg1)) := by
  dsimp only [V, hostOps0]
  after_results_simp <;> rfl

/-- The scaled features: each row of the features times the row's factor. -/
theorem V29 (c : Dev nD) : (V m c main_v29 : FVec Ideal S8192x128 .bf16)
    = truncf (F := Ideal) .bf16 (mulf (m ((c : Thread nD τ).loc main_arg0) : FVec Ideal S8192x128 .f32)
        (broadcastInDim S8192x128 ![0, 1] bcast_S8192x1_S8192x128_0_1
          (broadcastInDim S8192x1 ![0] bcast_S8192_S8192x1_0 (disTerm (adjTerm (m ((c : Thread nD τ).loc main_arg1)))))))
        bitsLt_bf16_f32 := by
  dsimp only [V, hostOps0]
  after_results_simp <;> rfl

/-- The transposed weights. -/
theorem V31 (c : Dev nD) : (V m c main_v31 : FVec Ideal S128x256 .bf16)
    = truncf (F := Ideal) .bf16 (transpose S128x256 [1, 0] (m ((c : Thread nD τ).loc main_arg2) : FVec Ideal S256x128 .f32) transposes_S256x128_S128x256_1_0)
        bitsLt_bf16_f32 := by
  dsimp only [V, hostOps0]
  after_results_simp <;> rfl

/-- The row factors as a column. -/
theorem V32 (c : Dev nD) : (V m c main_v32 : FVec Ideal S8192x1 .f32)
    = shapeCast S8192x1 (disTerm (adjTerm (m ((c : Thread nD τ).loc main_arg1)))) shapeCasts_S8192_S8192x1 := by
  dsimp only [V, hostOps0]
  after_results_simp <;> rfl

/-! ## Those arrays at an index -/

/-- The factor of row `r`: the row sum of the adjacency from zero, plus one, to the power the program's literal names. -/
def fac (A : FVec Ideal S8192x8192 .bf16) (r : Fin 8192) : EReal :=
  Ideal.pow ((Ideal.ofBits .f32 0x00000000#32 + ∑ k : Fin 8192, A (ix2 r k)) + Ideal.ofBits .f32 0x3F800000#32)
    (Ideal.ofBits .f32 0xBF000000#32)

theorem disTerm_apply (A : FVec Ideal S8192x8192 .bf16) (r : Fin 8192) : disTerm A (ix1 r) = fac A r := by
  unfold disTerm fac
  show Ideal.pow (Host.reduceAdd (extf .f32 A bitsLt_bf16_f32) (constant (F := Ideal) S_ .f32 0x00000000#32) reducesTo_S8192x8192_S8192_d1 h_S_ (ix1 r)
      + broadcastInDim S8192 ![] bcast_S_S8192 (constant (F := Ideal) S_ .f32 0x3F800000#32) (ix1 r))
    (broadcastInDim S8192 ![] bcast_S_S8192 (constant (F := Ideal) S_ .f32 0xBF000000#32) (ix1 r)) = _
  rw [broadcastInDim_scalar_apply, broadcastInDim_scalar_apply]
  simp only [Host.reduceAdd, Ideal.hostReduceAdd_def]
  rw [Ideal.hostReduceAdd_single reducesTo_S8192x8192_S8192_d1 (by decide)]
  refine congrArg₂ Ideal.pow (congrArg₂ (· + ·) (congrArg₂ (· + ·) rfl (Finset.sum_congr rfl fun k _ => ?_)) rfl) rfl
  exact congrArg A (funext fun a => Fin.ext (by match a with | ⟨0, _⟩ => rfl | ⟨1, _⟩ => rfl))

/-- A vector `[a]` placed as a column `[a, 1]` reads, at `(i, u)`, the vector at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The scaled features at `(k, q)`: the feature times row `k`'s factor. -/
theorem feat_apply (c : Dev nD) (k : Fin 8192) (q : Fin 128) :
    (V m c main_v29 : FVec Ideal S8192x128 .bf16) (ix2 k q)
      = xArg m c (ix2 k q) * fac (adjTerm (m ((c : Thread nD τ).loc main_arg1))) k := by
  rw [V29]
  show xArg m c (ix2 k q)
    * broadcastInDim S8192x128 ![0, 1] bcast_S8192x1_S8192x128_0_1
        (broadcastInDim S8192x1 ![0] bcast_S8192_S8192x1_0 (disTerm (adjTerm (m ((c : Thread nD τ).loc main_arg1))))) (ix2 k q) = _
  rw [Cert.LibRowMax.broadcastInDim_a1_ab_apply, broadcastInDim_a_a1_apply, disTerm_apply]

/-- The column of row factors at `(r, 0)`. -/
theorem fac_apply (c : Dev nD) (r : Fin 8192) :
    (V m c main_v32 : FVec Ideal S8192x1 .f32) (ix2 r (0 : Fin 1)) = fac (adjTerm (m ((c : Thread nD τ).loc main_arg1))) r := by
  rw [V32, Cert.LibColumn.shapeCast_a_a1_apply, disTerm_apply]

/-- The transposed weights at `(d, h)`: the weight `(h, d)`. -/
theorem wt_apply (c : Dev nD) (d : Fin 128) (h : Fin 256) :
    (V m c main_v31 : FVec Ideal S128x256 .bf16) (ix2 d h)
      = wArg m c (ix2 h d) := by
  rw [V31]
  exact transpose_ix2_apply (wArg m c) transposes_S256x128_S128x256_1_0 d h

end Cert.KernelIdeal.HostSide

end
-- ==== Proof.RefSpec.lean ====
/-
  The reference, entry by entry. With `A` the dense adjacency (the scatter of the edge list), `E` the identity as the
  program computes it (a comparison of the two index grids, converted to a float), `s r` the row sum of `A + E` from
  zero to the power the program's literal names, the result at `(r, h)` is
  `Σ_d (Σ_k ((s r · (A(r,k) + E(r,k))) · s k) · x(k,d)) · W(h,d)`.
-/
import proofs.«105016_j9328668967304_2_alg».proof.Proof.Gen.ReferenceIdeal.Read
import Idealize.ShloMosaic.Lib.IdealHost

noncomputable section

namespace Cert.ReferenceIdeal.RefValue

open Cert.ReferenceIdeal Cert.ReferenceIdeal.Read Idealize.ShloMosaic Idealize.ShloMosaic.ValueIdx

/-- The identity matrix's entry `(r, k)` as the program computes it: is row number plus zero equal to column
    number, as 32-bit words, converted to a float. -/
def eyeAt (r k : Fin 8192) : EReal :=
  FloatOps.uitofp (F := Ideal) .f32 (IntOp.cmpi .eq (IntOp.addi (BitVec.ofNat 32 r.val) 0#32) (BitVec.ofNat 32 k.val))

/-- It is one on the diagonal and zero off it: the numbers are below 2³², so the words are equal only if they are. -/
theorem eyeAt_eq (r k : Fin 8192) : eyeAt r k = if r = k then 1 else 0 := by
  unfold eyeAt
  show (((BitVec.ofBool (BitVec.ofNat 32 r.val + 0#32 == BitVec.ofNat 32 k.val)).toNat : ℝ) : EReal) = _
  rw [BitVec.add_zero]
  by_cases h : r = k
  · subst h; simp
  · have hne : (BitVec.ofNat 32 r.val == BitVec.ofNat 32 k.val) = false := by
      rw [beq_eq_false_iff_ne]
      intro e
      apply h
      apply Fin.ext
      have e' := congrArg BitVec.toNat e
      simp only [BitVec.toNat_ofNat] at e'
      have hr := r.isLt
      have hk := k.isLt
      omega
    rw [hne, if_neg h]; simp

/-- The factor of row `r`: the row sum of `A + E` from zero, to the power the program's literal names. -/
def facR (A : S8192x8192.Idx → EReal) (r : Fin 8192) : EReal :=
  Ideal.pow (Ideal.ofBits .f32 0x00000000#32 + ∑ k : Fin 8192, (A (ix2 r k) + eyeAt r k)) (Ideal.ofBits .f32 0xBF000000#32)

/-- The reference's result as a function of the adjacency, the features and the weights. -/
def refSpec (A : S8192x8192.Idx → EReal) (x0 : S8192x128.Idx → EReal) (x2 : S256x128.Idx → EReal) :
    S8192x256.Idx → EReal := fun i =>
  ∑ d : Fin 128, (∑ k : Fin 8192, ((facR A (i 0) * (A (ix2 (i 0) k) + eyeAt (i 0) k)) * facR A k) * x0 (ix2 k d))
    * x2 (ix2 (i 1) d)

variable (x1 : (⟨S2x131072, .i32⟩ : BufTy).Contents (Elt Ideal))

/-- `A + E` at `(r, k)`. -/
theorem v26_apply (r k : Fin 8192) :
    val_main_v26 (F := Ideal) x1 (ix2 r k) = val_main_v19 (F := Ideal) x1 (ix2 r k) + eyeAt r k := by
  rw [val_main_v26_apply, val_main_v25_apply, val_main_v24_apply, val_main_v23_apply, val_main_v22_apply,
    val_main_c_4_apply, val_main_v20_apply, val_main_v21_apply]
  rfl

/-- The factor of row `r`. -/
theorem v29_apply (r : Fin 8192) :
    val_main_v29 (F := Ideal) x1 (ix1 r) = facR (val_main_v19 (F := Ideal) x1) r := by
  rw [val_main_v29_apply, val_main_v27_apply, val_main_v28_apply, val_main_cst_6_apply, val_main_cst_5_apply]
  unfold facR
  refine congrArg₂ Ideal.pow (congrArg (_ + ·) (Finset.sum_congr rfl fun k _ => ?_)) rfl
  have hi : idx_main_v27 (ix1 r) k = ix2 r k :=
    funext fun a => Fin.ext (by match a with | ⟨0, _⟩ => rfl | ⟨1, _⟩ => rfl)
  rw [hi]
  exact v26_apply x1 r k

/-- The normalised adjacency at `(r, k)`. -/
theorem v35_apply (r k : Fin 8192) :
    val_main_v35 (F := Ideal) x1 (ix2 r k)
      = (facR (val_main_v19 (F := Ideal) x1) r * (val_main_v19 (F := Ideal) x1 (ix2 r k) + eyeAt r k))
        * facR (val_main_v19 (F := Ideal) x1) k := by
  have h1 : idx_main_v30 (idx_main_v31 (ix2 r k)) = ix1 r :=
    funext fun a => Fin.ext (by match a with | ⟨0, _⟩ => rfl)
  have h2 : idx_main_v33 (idx_main_v34 (ix2 r k)) = ix1 k :=
    funext fun a => Fin.ext (by match a with | ⟨0, _⟩ => rfl)
  rw [val_main_v35_apply, val_main_v32_apply, val_main_v31_apply, val_main_v30_apply, val_main_v34_apply,
    val_main_v33_apply, h1, h2, v29_apply, v29_apply, v26_apply]
  rfl

/-- The reference's result is `refSpec` of the adjacency and the two float arguments. -/
theorem ref_eq (x0 : (⟨S8192x128, .f32⟩ : BufTy).Contents (Elt Ideal)) (x2 : (⟨S256x128, .f32⟩ : BufTy).Contents (Elt Ideal)) :
    val_main_v38 (F := Ideal) x0 x1 x2 = refSpec (val_main_v19 (F := Ideal) x1) x0 x2 := by
  funext i
  obtain ⟨r, h, rfl⟩ : ∃ (r : Fin 8192) (h : Fin 256), i = ix2 r h := ⟨i 0, i 1, eq_ix2 i⟩
  rw [val_main_v38_apply]
  show _ = ∑ d : Fin 128, (∑ k : Fin 8192, ((facR (val_main_v19 (F := Ideal) x1) r
      * (val_main_v19 (F := Ideal) x1 (ix2 r k) + eyeAt r k)) * facR (val_main_v19 (F := Ideal) x1) k) * x0 (ix2 k d))
    * x2 (ix2 h d)
  refine Finset.sum_congr rfl fun d _ => ?_
  have hl : lidx_main_v38 (ix2 r h) d = ix2 r d :=
    funext fun a => Fin.ext (by match a with | ⟨0, _⟩ => rfl | ⟨1, _⟩ => rfl)
  have hr : ridx_main_v38 (ix2 r h) d = ix2 d h :=
    funext fun a => Fin.ext (by match a with | ⟨0, _⟩ => rfl | ⟨1, _⟩ => rfl)
  have hw : idx_main_v37 (ix2 d h) = ix2 h d :=
    funext fun a => Fin.ext (by match a with | ⟨0, _⟩ => rfl | ⟨1, _⟩ => rfl)
  rw [hl, hr, val_main_v37_apply, hw, val_main_v36_apply]
  refine congrArg (· * x2 (ix2 h d)) (Finset.sum_congr rfl fun k _ => ?_)
  have hl2 : lidx_main_v36 (ix2 r d) k = ix2 r k :=
    funext fun a => Fin.ext (by match a with | ⟨0, _⟩ => rfl | ⟨1, _⟩ => rfl)
  have hr2 : ridx_main_v36 (ix2 r d) k = ix2 k d :=
    funext fun a => Fin.ext (by match a with | ⟨0, _⟩ => rfl | ⟨1, _⟩ => rfl)
  rw [hl2, hr2, v35_apply]

end Cert.ReferenceIdeal.RefValue

end
-- ==== Proof.LibSelfLoopNorm.lean ====
/-
  Symmetric normalisation of an adjacency matrix with self-loops, on the extended reals.

  With `E` the identity matrix, `s` any real vector (the inverse square roots of the degrees, but nothing of
  that is used) and real data, the row `i` of `diag(s) (A + E) diag(s) X` can be computed without forming
  `A + E`: scale the rows of `X` by `s`, add to row `i` of the product `A (s X)` the scaled row `i` itself (the
  identity's contribution), and scale the result by `s i`. On the extended reals this needs every entry to be a real
  (distributivity fails at the infinities); sums of reals, products of reals and real powers of reals are reals.
  Also here: the degree `z + Σ (A + E)` of a row is `(z + Σ A) + 1`, with no condition on the entries (only
  commutativity and associativity of the sum are used), and a sum over `n · k` consecutive indices read block by
  block with the index taken modulo `n · k`.
-/
import Idealize.ShloMosaic.PureOps.Ideal
import Mathlib

noncomputable section

namespace Cert.Lib.SelfLoopNorm

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩
theorem isReal_zero : IsReal 0 := ⟨0, rfl⟩
theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real to a real power is a real (whatever the base's sign: the real power function is total). -/
theorem IsReal.pow {a b : EReal} (ha : IsReal a) (hb : IsReal b) : IsReal (Ideal.pow a b) := by
  obtain ⟨r, rfl⟩ := ha; obtain ⟨s, rfl⟩ := hb; exact ⟨Real.rpow r s, rfl⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The degree of a row -/

/-- The row sum of `A + E` from an initial value `z` is the row sum of `A` from `z`, plus one: the identity has
    exactly one 1 in each row. No condition on `A`. -/
theorem degree_eq {ι : Type*} [Fintype ι] [DecidableEq ι] (A E : ι → ι → EReal)
    (hE : ∀ i k, E i k = if i = k then 1 else 0) (z : EReal) (i : ι) :
    z + ∑ k, (A i k + E i k) = (z + ∑ k, A i k) + 1 := by
  rw [Finset.sum_add_distrib, add_assoc]
  congr 2
  simp only [hE, Finset.sum_ite_eq, Finset.mem_univ, if_true]

/-! ### The normalised product -/

/-- Over the reals. -/
theorem norm_real {ι : Type*} [Fintype ι] [DecidableEq ι] (a : ι → ι → ℝ) (x : ι → ℝ) (s : ι → ℝ) (i : ι) :
    (x i * s i + ∑ k, a i k * (x k * s k)) * s i
      = ∑ k, ((s i * (a i k + if i = k then 1 else 0)) * s k) * x k := by
  have h : ∀ k, ((s i * (a i k + if i = k then 1 else 0)) * s k) * x k
      = s i * (a i k * (x k * s k)) + (if i = k then s i * s k * x k else 0) := by
    intro k; split_ifs <;> ring
  simp only [h]
  rw [Finset.sum_add_distrib, Finset.sum_ite_eq, if_pos (Finset.mem_univ i), ← Finset.mul_sum]
  ring

/-- On the extended reals, for real entries. -/
theorem norm_ereal {ι : Type*} [Fintype ι] [DecidableEq ι] (A : ι → ι → EReal) (X : ι → EReal) (S : ι → EReal)
    (E : ι → ι → EReal) (hA : ∀ i k, IsReal (A i k)) (hX : ∀ k, IsReal (X k)) (hS : ∀ k, IsReal (S k))
    (hE : ∀ i k, E i k = if i = k then 1 else 0) (i : ι) :
    (X i * S i + ∑ k, A i k * (X k * S k)) * S i = ∑ k, ((S i * (A i k + E i k)) * S k) * X k := by
  choose a ha using hA
  choose x hx using hX
  choose s hs using hS
  have hE' : ∀ i k, E i k = (((if i = k then 1 else 0 : ℝ)) : EReal) := by
    intro i k; rw [hE]; split_ifs <;> simp
  simp only [ha, hx, hs, hE', ← EReal.coe_mul, ← EReal.coe_add, ← coe_sum]
  exact congrArg _ (norm_real a x s i)

/-! ### A sum read block by block -/

/-- A sum over `Fin (n * k)` is the sum over the `n` blocks `j` of the sums over the `k` places `e` of a block, the
    place's index being `k * j + e` reduced modulo `n * k` (it is below `n * k` already: the reduction only makes
    the index a total function of the two naturals). In any commutative additive monoid. -/
theorem sum_blocks {M : Type*} [AddCommMonoid M] (n k : ℕ) (hnk : 0 < n * k) (f : Fin (n * k) → M) :
    ∑ i : Fin (n * k), f i
      = ∑ j ∈ Finset.range n, ∑ e : Fin k, f ⟨(k * j + e.val) % (n * k), Nat.mod_lt _ hnk⟩ := by
  have h0 : ∑ i : Fin (n * k), f i = ∑ s : Fin n, ∑ e : Fin k, f (finProdFinEquiv (s, e)) := by
    rw [← Fintype.sum_prod_type']
    exact (Equiv.sum_comp finProdFinEquiv f).symm
  rw [h0, ← Fin.sum_univ_eq_sum_range (fun j => ∑ e : Fin k, f ⟨(k * j + e.val) % (n * k), Nat.mod_lt _ hnk⟩) n]
  refine Finset.sum_congr rfl fun j _ => Finset.sum_congr rfl fun e _ => congrArg f (Fin.ext ?_)
  show e.val + k * j.val = (k * j.val + e.val) % (n * k)
  have h1 : k * j.val + e.val < n * k := by
    have hj := j.isLt; have he := e.isLt
    calc k * j.val + e.val < k * j.val + k := by omega
      _ = k * (j.val + 1) := by ring
      _ ≤ k * n := Nat.mul_le_mul_left k hj
      _ = n * k := Nat.mul_comm k n
  rw [Nat.mod_eq_of_lt h1]; omega

end Cert.Lib.SelfLoopNorm

end
-- ==== Proof.LibScatterSet.lean ====
/-
  A `stablehlo.scatter` whose body returns the update (`x.at[idx].set(v)`): every element of the result is
  an element of the operand or one of the updates, whatever the indices are and however they collide. So a
  property shared by all elements of the operand and all updates holds of every element of the result.
  The scatter is a left fold over the update indices; each step either leaves the array alone (the update is
  dropped) or replaces one element by an update: the property is an invariant of the fold.
-/
import Idealize.ShloMosaic.PureOps.ShapeOps

namespace Idealize.ShloMosaic

/-- One step of the fold keeps the property: the array is unchanged, or one element becomes the update. -/
theorem Host.scatter_set_step {α : Type} {s : Shape} (P : α → Prop) (r : s.Idx → α) (o : Option s.Idx) (v : α)
    (hr : ∀ i, P (r i)) (hv : P v) (i' : s.Idx) :
    P ((match o with
        | some i => fun i' => if i' = i then (fun (_ : α) (b : α) => b) (r i) v else r i'
        | none => r) i') := by
  cases o with
  | none => exact hr i'
  | some i =>
    show P (if i' = i then v else r i')
    by_cases h : i' = i
    · rw [if_pos h]; exact hv
    · rw [if_neg h]; exact hr i'

/-- A property of every element of the operand and of every update is a property of every element of the
    result of a scatter whose body returns the update. -/
theorem Host.scatter_set_all {α : Type} {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    exact ih _ (fun i' => Host.scatter_set_step P x (d.resultIdx? (u.rowMajor.symm n) idx) (upd (u.rowMajor.symm n)) hx (hu _) i')

end Idealize.ShloMosaic
-- ==== Proof.Bridge.lean ====
/-
  The kernel's result array and the reference's are one function of the arguments.

  Both programs scatter the same ones into the same zeros at the same index pairs, so they work from one adjacency
  `A`, every entry of which is 0 or 1 — a real. The kernel's row degree `(0 + Σ A) + 1` is the reference's
  `0 + Σ (A + E)` (the identity has one 1 per row), so the two vectors of row factors `s` agree, and each factor is a
  real (a real power of a real). The kernel's four block products add up to the full row product (the column tiles
  partition the columns). With every entry a real, `(x(r,d)·s(r) + Σ_k A(r,k)·(x(k,d)·s(k)))·s(r)` equals
  `Σ_k ((s(r)·(A(r,k) + E(r,k)))·s(k))·x(k,d)`; both sides then meet the same weights.
-/
import proofs.«105016_j9328668967304_2_alg».proof.Proof.KernelSweep
import proofs.«105016_j9328668967304_2_alg».proof.Proof.KernelHost
import proofs.«105016_j9328668967304_2_alg».proof.Proof.RefSpec
import proofs.«105016_j9328668967304_2_alg».proof.Proof.LibSelfLoopNorm
import proofs.«105016_j9328668967304_2_alg».proof.Proof.LibScatterSet

set_option maxRecDepth 16384

noncomputable section

namespace Cert.Proof.Bridge

open Idealize.ShloMosaic Idealize.ShloMosaic.TcCoe Idealize.SL.Sem Idealize.ShloMosaic.ValueIdx
open Cert.KernelIdeal Cert.KernelIdeal.Gen Cert.Lib.SelfLoopNorm
open Cert.KernelIdeal.Sweep (row adjV featV wtV facV blockTerm result)
open Cert.KernelIdeal.HostSide (adjTerm fac xArg wArg eArg)
open Cert.ReferenceIdeal.RefValue (refSpec facR eyeAt eyeAt_eq)

/-- The reference's adjacency, as an array of extended reals. -/
abbrev RAdj (x1 : (⟨S2x131072, .i32⟩ : BufTy).Contents (Elt Ideal)) : S8192x8192.Idx → EReal :=
  Cert.ReferenceIdeal.Read.val_main_v19 (F := Ideal) x1

/-- The kernel's adjacency is the reference's: the same scatter of ones (the bf16 and the f32 word of 1 are both the
    real 1) into zeros (likewise) at the same index pairs. -/
theorem adj_eq (x1 : (⟨S2x131072, .i32⟩ : BufTy).Contents (Elt Ideal)) :
    (adjTerm x1 : S8192x8192.Idx → EReal) = RAdj x1 := by
  have hz : (broadcastInDim S8192x8192 ![] bcast_S_S8192x8192 (constant (F := Ideal) S_ .bf16 0x0000#16) : S8192x8192.Idx → EReal)
      = Cert.ReferenceIdeal.Read.val_main_v4 (F := Ideal) := by
    funext i
    rw [Cert.ReferenceIdeal.Read.val_main_v4_apply, Cert.ReferenceIdeal.Read.val_main_cst_apply, broadcastInDim_scalar_apply]
    show Ideal.ofBits .bf16 0x0000#16 = Ideal.ofBits .f32 0x00000000#32
    rw [Ideal.ofBits_zero_bf16, Ideal.ofBits_zero_f32]
  have ho : (broadcastInDim S131072 ![] bcast_S_S131072 (constant (F := Ideal) S_ .bf16 0x3F80#16) : S131072.Idx → EReal)
      = Cert.ReferenceIdeal.Read.val_main_v18 (F := Ideal) := by
    funext i
    rw [Cert.ReferenceIdeal.Read.val_main_v18_apply, Cert.ReferenceIdeal.Read.val_main_cst_3_apply, broadcastInDim_scalar_apply]
    show Ideal.ofBits .bf16 0x3F80#16 = Ideal.ofBits .f32 0x3F800000#32
    rw [Ideal.ofBits_one_bf16, Ideal.ofBits_one_f32]
  unfold adjTerm
  show Host.scatter _ _ _ _ _ = Cert.ReferenceIdeal.Read.val_main_v19 (F := Ideal) x1
  unfold Cert.ReferenceIdeal.Read.val_main_v19
  rw [hz, ho]
  rfl

/-- Every entry of the adjacency is a real: it is a 0 of the operand or a 1 of the updates. -/
theorem adj_real (x1 : (⟨S2x131072, .i32⟩ : BufTy).Contents (Elt Ideal)) (i : S8192x8192.Idx) : IsReal (RAdj x1 i) := by
  show IsReal (Cert.ReferenceIdeal.Read.val_main_v19 (F := Ideal) x1 i)
  unfold Cert.ReferenceIdeal.Read.val_main_v19
  refine Host.scatter_set_all _ IsReal _ _ _ (fun i => ?_) (fun j => ?_) i
  · rw [Cert.ReferenceIdeal.Read.val_main_v4_apply, Cert.ReferenceIdeal.Read.val_main_cst_apply]
    show IsReal (Ideal.ofBits .f32 0x00000000#32)
    rw [Ideal.ofBits_zero_f32]; exact isReal_zero
  · rw [Cert.ReferenceIdeal.Read.val_main_v18_apply, Cert.ReferenceIdeal.Read.val_main_cst_3_apply]
    show IsReal (Ideal.ofBits .f32 0x3F800000#32)
    rw [Ideal.ofBits_one_f32]; exact isReal_one

/-- The exponent's word is the real −1/2. -/
theorem expo_real : IsReal (Ideal.ofBits .f32 0xBF000000#32) := by
  refine ⟨-(1 / 2), ?_⟩
  simp [Ideal.ofBits, Ideal.ieee, -EReal.coe_mul, -EReal.coe_neg]; norm_num

/-- The kernel's row factor is the reference's. -/
theorem fac_eq (A : S8192x8192.Idx → EReal) (r : Fin 8192) : fac A r = facR A r := by
  unfold fac facR
  rw [Ideal.ofBits_one_f32]
  exact congrArg (Ideal.pow · _) (degree_eq (fun i k => A (ix2 i k)) eyeAt eyeAt_eq _ r).symm

/-- A row factor over a real adjacency is a real. -/
theorem facR_real (A : S8192x8192.Idx → EReal) (hA : ∀ i, IsReal (A i)) (r : Fin 8192) : IsReal (facR A r) := by
  unfold facR
  refine IsReal.pow (IsReal.add (by rw [Ideal.ofBits_zero_f32]; exact isReal_zero)
    (IsReal.sum _ _ fun k _ => (hA _).add ?_)) expo_real
  rw [eyeAt_eq]
  split_ifs
  · exact isReal_one
  · exact isReal_zero

/-- The four column tiles partition the 8192 columns. -/
theorem sum_rows (f : Fin 8192 → EReal) :
    ∑ j ∈ Finset.range 4, ∑ e : Fin 2048, f (row (2048 * j + e.val)) = ∑ k, f k :=
  (sum_blocks 4 2048 (by decide) f).symm

variable (m : (ℓ : Loc nD τ sig) → Buf (Elt Ideal) ℓ)

/-- THE BRIDGE: for real features, the kernel's result array is the reference's function of the arguments. -/
theorem result_eq (c : Dev nD)
    (hx0 : ∀ i, IsReal (xArg m c i)) :
    result m c = refSpec (RAdj (m ((c : Thread nD τ).loc main_arg1))) (xArg m c) (wArg m c) := by
  have hadj : adjV m c = RAdj (m ((c : Thread nD τ).loc main_arg1)) :=
    (Cert.KernelIdeal.HostSide.V19 m c).trans (adj_eq _)
  have hfeat : ∀ (k : Fin 8192) (q : Fin 128), featV m c (ix2 k q)
      = xArg m c (ix2 k q)
        * facR (RAdj (m ((c : Thread nD τ).loc main_arg1))) k := fun k q =>
    (Cert.KernelIdeal.HostSide.feat_apply m c k q).trans (by rw [adj_eq, fac_eq])
  have hfac : ∀ r : Fin 8192, facV m c (ix2 r (0 : Fin 1)) = facR (RAdj (m ((c : Thread nD τ).loc main_arg1))) r := fun r =>
    (Cert.KernelIdeal.HostSide.fac_apply m c r).trans (by rw [adj_eq, fac_eq])
  have hwt : ∀ (d : Fin 128) (h : Fin 256), wtV m c (ix2 d h)
      = wArg m c (ix2 h d) := fun d h =>
    Cert.KernelIdeal.HostSide.wt_apply m c d h
  funext i
  obtain ⟨r, h, rfl⟩ : ∃ (r : Fin 8192) (h : Fin 256), i = ix2 r h := ⟨i 0, i 1, eq_ix2 i⟩
  show ∑ d : Fin 128, ((featV m c (ix2 r d) + ∑ j ∈ Finset.range 4, blockTerm m c r j d)
        * facV m c (ix2 r (0 : Fin 1))) * wtV m c (ix2 d h)
    = ∑ d : Fin 128, (∑ k : Fin 8192, ((facR (RAdj (m ((c : Thread nD τ).loc main_arg1))) r
          * (RAdj (m ((c : Thread nD τ).loc main_arg1)) (ix2 r k) + eyeAt r k))
          * facR (RAdj (m ((c : Thread nD τ).loc main_arg1))) k)
          * xArg m c (ix2 k d))
        * wArg m c (ix2 h d)
  refine Finset.sum_congr rfl fun d _ => ?_
  rw [hfac, hwt]
  refine congrArg (· * wArg m c (ix2 h d)) ?_
  have hb : ∑ j ∈ Finset.range 4, blockTerm m c r j d
      = ∑ k : Fin 8192, RAdj (m ((c : Thread nD τ).loc main_arg1)) (ix2 r k)
          * (xArg m c (ix2 k d)
            * facR (RAdj (m ((c : Thread nD τ).loc main_arg1))) k) := by
    rw [← sum_rows (fun k => RAdj (m ((c : Thread nD τ).loc main_arg1)) (ix2 r k)
          * (xArg m c (ix2 k d)
            * facR (RAdj (m ((c : Thread nD τ).loc main_arg1))) k))]
    refine Finset.sum_congr rfl fun j _ => Finset.sum_congr rfl fun e _ => ?_
    rw [hadj, hfeat]
  rw [hfeat, hb]
  exact norm_ereal (fun i k => RAdj (m ((c : Thread nD τ).loc main_arg1)) (ix2 i k))
    (fun k => xArg m c (ix2 k d))
    (facR (RAdj (m ((c : Thread nD τ).loc main_arg1)))) eyeAt
    (fun i k => adj_real _ _) (fun k => hx0 _) (facR_real _ (adj_real _)) eyeAt_eq r

end Cert.Proof.Bridge

end
-- ==== Proof.FiniteInputs.lean ====
/-
  What the precondition says: every entry of the features and of the weights is a real number. The precondition is
  "all |x| < +∞" for each float argument, and an extended real whose absolute value is below +∞ is neither infinity.
-/
import proofs.«105016_j9328668967304_2_alg».proof.Pre_finite_inputs
import proofs.«105016_j9328668967304_2_alg».proof.Proof.LibSelfLoopNorm
import Idealize.ShloMosaic.Lib.ReduceAll
import Idealize.ShloMosaic.Lib.IdealHost
import Idealize.ShloMosaic.Lib.ValueIdx

noncomputable section

namespace Cert.Pre_finite_inputs.Finite

open Cert.Pre_finite_inputs Idealize.ShloMosaic Cert.Lib.SelfLoopNorm

/-- The scalar shape has one index. -/
instance : Subsingleton S_.Idx := ⟨fun a b => funext fun d => d.elim0⟩

/-- An extended real whose absolute value compares below the word of +∞ is a real. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Facts]
open Facts

/-- Under the precondition every entry of both float arguments is a real. -/
theorem real_of_pre (x0 : FVec Ideal S8192x128 .f32) (x1 : IVec S2x131072 32) (x2 : FVec Ideal S256x128 .f32)
    (h : fn (F := Ideal) x0 x1 x2 = fun _ => 1#1) :
    (∀ i, IsReal (x0 i)) ∧ (∀ i, IsReal (x2 i)) := by
  have h0 := congrFun h ValueIdx.ix0
  dsimp only [fn] at h0
  obtain ⟨ha, hb⟩ := IntOp.andi_eq_one.1 h0
  refine ⟨fun i => ?_, fun i => ?_⟩
  · have hi := Host.reduce_andi_all _ _ _ _ _ ha i
    have e : broadcastInDim S8192x128 ![] bcast_S_S8192x128 (constant (F := Ideal) S_ .f32 0x7F800000#32) i
        = Ideal.ofBits .f32 0x7F800000#32 := ValueIdx.broadcastInDim_scalar_apply _ _ i
    have hi' : Ideal.cmp .olt (max (x0 i) (-x0 i))
        (broadcastInDim S8192x128 ![] bcast_S_S8192x128 (constant (F := Ideal) S_ .f32 0x7F800000#32) i) = 1#1 := hi
    rw [e] at hi'
    exact isReal_of_abs_lt (x0 i) hi'
  · have hi := Host.reduce_andi_all _ _ _ _ _ hb i
    have e : broadcastInDim S256x128 ![] bcast_S_S256x128 (constant (F := Ideal) S_ .f32 0x7F800000#32) i
        = Ideal.ofBits .f32 0x7F800000#32 := ValueIdx.broadcastInDim_scalar_apply _ _ i
    have hi' : Ideal.cmp .olt (max (x2 i) (-x2 i))
        (broadcastInDim S256x128 ![] bcast_S_S256x128 (constant (F := Ideal) S_ .f32 0x7F800000#32) i) = 1#1 := hi
    rw [e] at hi'
    exact isReal_of_abs_lt (x2 i) hi'

end Cert.Pre_finite_inputs.Finite

end
-- ==== Proof.lean ====
/-
  A dense graph-convolution layer, `out = D^(-1/2) (A + I) D^(-1/2) x Wᵀ` with `D` the row sums of `A + I`, computed
  two ways from the same edge list, features and weights.

  The reference forms `A + I`, its row sums `D`, the normalised matrix `s (A + I) s` (`s = D^(-1/2)`), and two
  matrix products. The kernel never forms `A + I`: it takes the degree as `ΣA + 1`, scales the features' rows by `s`
  beforehand, accumulates `A · (s x)` over four column tiles into an accumulator seeded with the tile's own rows of
  `s x` (the identity's term), scales the finished rows by `s` and multiplies by `Wᵀ`.

  On the extended reals the two agree whenever the features are finite: the adjacency's entries are 0 or 1, the row
  factors are reals, and with every entry a real the distributive law that joins the two arrangements holds
  (Proof/Bridge.lean). The kernel's result array is read off its run (Proof/KernelSweep.lean, over the body's pieces
  in Proof/KernelPieces.lean and their arithmetic in Proof/KernelPayload.lean) and off the host operations before it
  (Proof/KernelHost.lean); the reference's off its run (Proof/RefSpec.lean). The three frames are the programs' runs
  with the results dropped; the idealization rewrote nothing, so `preserves` is trivial.
-/
import proofs.«105016_j9328668967304_2_alg».proof.Defs
import proofs.«105016_j9328668967304_2_alg».proof.Proof.Gen.Kernel
import proofs.«105016_j9328668967304_2_alg».proof.Proof.Gen.Kernel.Skeleton
import proofs.«105016_j9328668967304_2_alg».proof.Proof.Gen.Kernel.Launch
import proofs.«105016_j9328668967304_2_alg».proof.Proof.Gen.Kernel.Points
import proofs.«105016_j9328668967304_2_alg».proof.Proof.Gen.Kernel.Frame
import proofs.«105016_j9328668967304_2_alg».proof.Proof.Gen.KernelIdeal
import proofs.«105016_j9328668967304_2_alg».proof.Proof.Gen.KernelIdeal.Skeleton
import proofs.«105016_j9328668967304_2_alg».proof.Proof.Gen.KernelIdeal.Launch
import proofs.«105016_j9328668967304_2_alg».proof.Proof.Gen.KernelIdeal.Points
import proofs.«105016_j9328668967304_2_alg».proof.Proof.Gen.KernelIdeal.Frame
import proofs.«105016_j9328668967304_2_alg».proof.Proof.Gen.ReferenceIdeal
import proofs.«105016_j9328668967304_2_alg».proof.Proof.Gen.Pre_finite_inputs
import proofs.«105016_j9328668967304_2_alg».proof.Proof.Gen.KernelIdeal.Value
import proofs.«105016_j9328668967304_2_alg».proof.Proof.Gen.ReferenceIdeal.Run
import proofs.«105016_j9328668967304_2_alg».proof.Proof.Gen.ReferenceIdeal.Read
import proofs.«105016_j9328668967304_2_alg».proof.Proof.Bridge
import proofs.«105016_j9328668967304_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with finite features, both runs end with the result array at the
    kernel's function of the arguments, which is the reference's. -/
theorem algebraic : Cert.algebraic_KernelIdeal_ReferenceIdeal := by
  intro m ρ m' ρ' hpre hagree
  refine ⟨fun c => Cert.KernelIdeal.Sweep.result m c, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2,
    Cert.ReferenceIdeal.RefValue.ref_eq]
  exact (Cert.Proof.Bridge.result_eq m c (Cert.Pre_finite_inputs.Finite.real_of_pre _ _ _ (hpre c)).1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
